-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S1x11008 : Shape := ⟨2, ![1, 11008]⟩
abbrev S8192x11008 : Shape := ⟨2, ![8192, 11008]⟩
abbrev S2048x1024 : Shape := ⟨2, ![2048, 1024]⟩
abbrev S256x1024 : Shape := ⟨2, ![256, 1024]⟩
abbrev S256x1 : Shape := ⟨2, ![256, 1]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S8192x4096, .f32⟩
  | .hbm, ⟨5, _⟩ => ⟨S11008x1, .f32⟩
  | .hbm, ⟨6, _⟩ => ⟨S1x11008, .f32⟩
  | .hbm, ⟨7, _⟩ => ⟨S8192x11008, .f32⟩
  | .hbm, ⟨8, _⟩ => ⟨S4x2048x11008, .f32⟩
  | .local _ .vmem, ⟨0, _⟩ => ⟨S2048x1024, .f32⟩
  | .local _ .vmem, ⟨1, _⟩ => ⟨S2048x1024, .f32⟩
  | .local _ .vmem, ⟨2, _⟩ => ⟨S256x1024, .i32⟩
  | .local _ .vmem, ⟨3, _⟩ => ⟨S256x1024, .i32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 43, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S11008_S11008x1 : S11008.ShapeCasts S11008x1
  shapeCasts_S11008_S1x11008 : S11008.ShapeCasts S1x11008
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S8192x11008_S4x2048x11008 : S8192x11008.ShapeCasts S4x2048x11008
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x4096.size a
  hwx0_1 : ∀ i : grid0.Coords, EltTy.bits .i32 = 32 ∨ (Rect.block (s := S11008x4096) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x11008.size a
  hwx0_4 : ∀ i : grid0.Coords, EltTy.bits .f32 = 32 ∨ (Rect.block (s := S8192x11008) S2048x256.size (cc0_transform_4 i) (hinb0_4 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S4x2048x11008, .f32⟩
  | .hbm, ⟨9, _⟩ => ⟨S1x1x11008, .f32⟩
  | .hbm, ⟨10, _⟩ => ⟨S4x2048x11008, .f32⟩
  | .hbm, ⟨11, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What the kernel body leaves in its buffers, case by case, as the body's own arithmetic.

  The body keeps a [2048, 256] accumulator in a scratch buffer that lives across grid points. At the first point of a
  run along the contraction axis it stores zeros and then adds the point's block product; at every later point it adds
  the point's block product to what the point before left; at the last point of the run it also adds the bias row and
  stores the sum into the output block. Each lemma below reads one of those buffers back: every store covers its whole
  buffer from offset zero, so the buffer holds the stored value, and every load reads a whole buffer, so the stored
  value is the body's arithmetic of the blocks themselves (and, for a load that follows a store into the same buffer,
  of the value just stored).
-/
import proofs.«136515_j14551349199601_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of every load and store of the body: zero on both axes. -/
theorem hz : (![0, 0] : Fin 2 → Nat) = fun _ => 0 := funext fun a => by fin_cases a <;> rfl

/-- First point of a run: the accumulator ends at the zero block plus the point's block product. -/
theorem scratch_first (c : Dev nD) (i : grid0.Coords) (a3 : Memref sig .tc .vmem S2048x1024 .f32) (h3 : a3.IsWhole) (a4 : Memref sig .tc .vmem S256x1024 .i32) (h4 : a4.IsWhole) (a5 : Memref sig .tc .vmem S256x1 .f32) (h5 : a5.IsWhole) (a6 : Memref sig .tc .vmem S1x256 .f32) (h6 : a6.IsWhole) (a7 : Memref sig .tc .vmem S2048x256 .f32) (h7 : a7.IsWhole) (a8 : Memref sig .tc .vmem S2048x256 .f32) (h8 : a8.IsWhole) (hc0 : cond0_0 i) (hc1 : ¬cond0_1 i)
    (x0 : Vec F S2048x1024 .f32) (x1 : Vec F S256x1024 .i32) (x2 : Vec F S256x1 .f32) (x3 : Vec F S1x256 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x256) hz, View.readCov_unit_zero (S := S2048x256) _ hz]
  simp only [View.readAt_eq_ld, h3.read_unread, h4.read_unread, h5.read_unread,
    View.ld_unit_zero (S := S2048x1024) hz, View.ld_unit_zero (S := S256x1024) hz, View.ld_unit_zero (S := S256x1) hz]

/-- A middle point of a run: the accumulator ends at what the point before left plus the point's block product. -/
theorem scratch_middle (c : Dev nD) (i : grid0.Coords) (a3 : Memref sig .tc .vmem S2048x1024 .f32) (h3 : a3.IsWhole) (a4 : Memref sig .tc .vmem S256x1024 .i32) (h4 : a4.IsWhole) (a5 : Memref sig .tc .vmem S256x1 .f32) (h5 : a5.IsWhole) (a6 : Memref sig .tc .vmem S1x256 .f32) (h6 : a6.IsWhole) (a7 : Memref sig .tc .vmem S2048x256 .f32) (h7 : a7.IsWhole) (a8 : Memref sig .tc .vmem S2048x256 .f32) (h8 : a8.IsWhole) (hc0 : ¬cond0_0 i) (hc1 : ¬cond0_1 i)
    (x0 : Vec F S2048x1024 .f32) (x1 : Vec F S256x1024 .i32) (x2 : Vec F S256x1 .f32) (x3 : Vec F S1x256 .f32) (xs0 : Vec F S2048x256 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread,
    View.ld_unit_zero (S := S2048x1024) hz, View.ld_unit_zero (S := S256x1024) hz, View.ld_unit_zero (S := S256x1) hz,
    View.ld_unit_zero (S := S2048x256) hz]

/-- Last point of a run: the accumulator is updated as at a middle point … -/
theorem scratch_last (c : Dev nD) (i : grid0.Coords) (a3 : Memref sig .tc .vmem S2048x1024 .f32) (h3 : a3.IsWhole) (a4 : Memref sig .tc .vmem S256x1024 .i32) (h4 : a4.IsWhole) (a5 : Memref sig .tc .vmem S256x1 .f32) (h5 : a5.IsWhole) (a6 : Memref sig .tc .vmem S1x256 .f32) (h6 : a6.IsWhole) (a7 : Memref sig .tc .vmem S2048x256 .f32) (h7 : a7.IsWhole) (a8 : Memref sig .tc .vmem S2048x256 .f32) (h8 : a8.IsWhole) (hc0 : ¬cond0_0 i) (hc1 : cond0_1 i)
    (x0 : Vec F S2048x1024 .f32) (x1 : Vec F S256x1024 .i32) (x2 : Vec F S256x1 .f32) (x3 : Vec F S1x256 .f32) (xs0 : Vec F S2048x256 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h8.read_unread,
    View.ld_unit_zero (S := S2048x1024) hz, View.ld_unit_zero (S := S256x1024) hz, View.ld_unit_zero (S := S256x1) hz,
    View.ld_unit_zero (S := S2048x256) hz]

/-- … and the output block is that updated accumulator plus the bias row. -/
theorem out_last (c : Dev nD) (i : grid0.Coords) (a3 : Memref sig .tc .vmem S2048x1024 .f32) (h3 : a3.IsWhole) (a4 : Memref sig .tc .vmem S256x1024 .i32) (h4 : a4.IsWhole) (a5 : Memref sig .tc .vmem S256x1 .f32) (h5 : a5.IsWhole) (a6 : Memref sig .tc .vmem S1x256 .f32) (h6 : a6.IsWhole) (a7 : Memref sig .tc .vmem S2048x256 .f32) (h7 : a7.IsWhole) (a8 : Memref sig .tc .vmem S2048x256 .f32) (h8 : a8.IsWhole) (hc0 : ¬cond0_0 i) (hc1 : cond0_1 i)
    (x0 : Vec F S2048x1024 .f32) (x1 : Vec F S256x1024 .i32) (x2 : Vec F S256x1 .f32) (x3 : Vec F S1x256 .f32) (xs0 : Vec F S2048x256 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S2048x256) _ hz]
  simp only [View.readAt_eq_ld, h3.read_unread, h4.read_unread, h5.read_unread, h6.read_unread, h8.read_unread,
    View.ld_unit_zero (S := S2048x1024) hz, View.ld_unit_zero (S := S256x1024) hz, View.ld_unit_zero (S := S256x1) hz,
    View.ld_unit_zero (S := S1x256) hz, View.ld_unit_zero (S := S2048x256) hz]

end Cert.KernelIdeal.Pieces

end
-- ==== Proof.Accum.lean ====
/-
  The accumulator across the grid.

  The grid is walked with the contraction axis fastest: points 4g, 4g+1, 4g+2, 4g+3 are the four steps of one output
  block. The scratch accumulator is reset at a point whose number is a multiple of 4 and takes one accumulation step
  from what the point before left at every other point, so after point 4g + j it holds the fold of the run 4g … 4g + j:
  the reset value of point 4g stepped through the later points. At the last point of a run the output block is the
  final step (adding the bias row) applied to the accumulator that point leaves. Both facts hold for any float
  instance; they say nothing yet about the arithmetic.
-/
import proofs.«136515_j14551349199601_1_alg».proof.Proof.Pieces
import Idealize.ShloMosaic.Lib.Pipeline.Value

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- The accumulator after the FIRST point `n` of a run: zero plus that point's block product. -/
def first (c : Dev nD) (n : ℕ) (h : n < cfg0.N) : Vec F S2048x256 .f32 :=
  k0_pay2 (iblk m c 0 ⟨n, h⟩) (iblk m c 1 ⟨n, h⟩) (iblk m c 2 ⟨n, h⟩) (k0_pay1 (F := F))

/-- One accumulation step at point `n`: what was held plus that point's block product. -/
def step (c : Dev nD) (n : ℕ) (h : n < cfg0.N) (acc : Vec F S2048x256 .f32) : Vec F S2048x256 .f32 :=
  k0_pay2 (iblk m c 0 ⟨n, h⟩) (iblk m c 1 ⟨n, h⟩) (iblk m c 2 ⟨n, h⟩) acc

/-- At a point whose number is a multiple of 4 the accumulator is reset. -/
theorem scratch_reset (c : Dev nD) (n : ℕ) (h : n < cfg0.N) (h0 : n % 4 = 0) :
    (outsAt0 m c n h).2 = first m c n h := by
  have h1 : ¬n % 4 = 3 := by omega
  rw [outsAt0_A m c ⟨n, h⟩ h0 h1]
  dsimp only
  exact Pieces.scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩) (iblk m c 3 ⟨n, h⟩)

/-- At every other point it takes one step from what the point before left. -/
theorem scratch_step (c : Dev nD) (n : ℕ) (h : n + 1 < cfg0.N) (hne : ¬(n + 1) % 4 = 0) :
    (outsAt0 m c (n + 1) h).2 = step m c (n + 1) h ((outsAt0 m c n (Nat.lt_of_succ_lt h)).2) := by
  by_cases h3 : (n + 1) % 4 = 3
  · rw [outsAt0_C m c ⟨n + 1, h⟩ hne h3]
    dsimp only
    exact Pieces.scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => hne ((hcond0_0 ⟨n + 1, h⟩).mp hh)) ((hcond0_1 ⟨n + 1, h⟩).mpr h3)
      (iblk m c 0 ⟨n + 1, h⟩) (iblk m c 1 ⟨n + 1, h⟩) (iblk m c 2 ⟨n + 1, h⟩) (iblk m c 3 ⟨n + 1, h⟩) ((outsAt0 m c n (Nat.lt_of_succ_lt h)).2)
  · rw [outsAt0_B m c ⟨n + 1, h⟩ hne h3]
    dsimp only
    exact Pieces.scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => hne ((hcond0_0 ⟨n + 1, h⟩).mp hh)) (fun hh => h3 ((hcond0_1 ⟨n + 1, h⟩).mp hh))
      (iblk m c 0 ⟨n + 1, h⟩) (iblk m c 1 ⟨n + 1, h⟩) (iblk m c 2 ⟨n + 1, h⟩) (iblk m c 3 ⟨n + 1, h⟩) ((outsAt0 m c n (Nat.lt_of_succ_lt h)).2)

/-- So after point 4g + j (j < 4) the accumulator is the fold of the run 4g … 4g + j. -/
theorem scratch_eq_fold (c : Dev nD) (g j : ℕ) (hj : j < 4) (h : 4 * g + j < cfg0.N) :
    (outsAt0 m c (4 * g + j) h).2 = Pipeline.accAt (first m c) (step m c) (4 * g) j h :=
  Pipeline.eq_accAt (fun n h => (outsAt0 m c n h).2) 4 (first m c) (step m c)
    (fun n h h0 => scratch_reset m c n h h0) (fun n h hne => scratch_step m c n h hne) g j hj h

/-- At the last point of a run the output block is the accumulator that point leaves plus the bias row. -/
theorem out_at_flush (c : Dev nD) (n : ℕ) (h : n < cfg0.N) (h3 : n % 4 = 3) :
    (outsAt0 m c n h).1 = k0_pay3 ((outsAt0 m c n h).2) (iblk m c 3 ⟨n, h⟩) := by
  have hne : ¬n % 4 = 0 := by omega
  rw [outsAt0_C m c ⟨n, h⟩ hne h3]
  dsimp only
  refine (Pieces.out_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => hne ((hcond0_0 ⟨n, h⟩).mp hh)) ((hcond0_1 ⟨n, h⟩).mpr h3)
      (iblk m c 0 ⟨n, h⟩) (iblk m c 1 ⟨n, h⟩) (iblk m c 2 ⟨n, h⟩) (iblk m c 3 ⟨n, h⟩) _).trans ?_
  refine congrArg (fun a => k0_pay3 a (iblk m c 3 ⟨n, h⟩)) ?_
  exact (Pieces.scratch_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => hne ((hcond0_0 ⟨n, h⟩).mp hh)) ((hcond0_1 ⟨n, h⟩).mpr h3)
      (iblk m c 0 ⟨n, h⟩) (iblk m c 1 ⟨n, h⟩) (iblk m c 2 ⟨n, h⟩) (iblk m c 3 ⟨n, h⟩) _).symm

end Cert.KernelIdeal.Accum

end
-- ==== Proof.Payload.lean ====
/-
  The body's arithmetic, one element at a time, on the extended reals.

  With exact arithmetic a change of float format is the identity, the conversion of an integer weight is the integer
  itself, and the matrix product into a zero accumulator is a plain sum over the contracted axis. So, at row `p` and
  column `q` of a [2048, 256] block:
    * the reset value is 0;
    * one accumulation step adds, to what the accumulator held, the sum over the 1024 contracted positions `l` of
      x[p, l] · (w[q, l] · scale[q]) — the weight block is contracted along ITS second axis, so the product is with the
      transposed weight block without a transpose being formed;
    * the final step adds the bias entry of column `q`, the bias block being one row broadcast over all rows.
-/
import proofs.«136515_j14551349199601_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The dimension numbers of the body's matrix product: axis 1 of each operand contracted, axis 0 of each kept. -/
abbrev D := dot_S2048x1024_S256x1024_S2048x256_1_1_0_0_n_n

/-- The reset value of the accumulator: zero everywhere. -/
theorem reset_apply (j : S2048x256.Idx) : k0_pay1 (F := Ideal) j = 0 := by
  unfold k0_pay1
  simp only [shapeCast_self]
  exact Ideal.ofBits_zero_f32

/-- The left operand of the product is read at (output row, contracted position) … -/
theorem lhs_row (j : S2048x256.Idx) (k : D.contr.Idx) : (D.lhsIdx j k 0).val = (j 0).val := by
  unfold DotDims.lhsIdx
  rw [dif_neg (show ¬(0 : Fin S2048x1024.rank) ∈ D.lhsBatch by decide),
    dif_pos (show (0 : Fin S2048x1024.rank) ∈ D.lhsNonContracting by decide)]
  rfl
theorem lhs_contr (j : S2048x256.Idx) (k : D.contr.Idx) : (D.lhsIdx j k 1).val = (k ⟨0, by decide⟩).val :=
  D.lhsIdx_val_of_single rfl j k
/-- … and the right operand at (output column, contracted position): both operands are contracted along axis 1. -/
theorem rhs_row (j : S2048x256.Idx) (k : D.contr.Idx) : (D.rhsIdx j k 0).val = (j 1).val := by
  unfold DotDims.rhsIdx
  rw [dif_neg (show ¬(0 : Fin S256x1024.rank) ∈ D.rhsBatch by decide),
    dif_pos (show (0 : Fin S256x1024.rank) ∈ D.rhsNonContracting by decide)]
  rfl
theorem rhs_contr (j : S2048x256.Idx) (k : D.contr.Idx) : (D.rhsIdx j k 1).val = (k ⟨0, by decide⟩).val :=
  D.rhsIdx_val_of_single rfl j k

/-- The matrix product into a zero accumulator, at (p, q): the sum over the contracted position of the products. -/
theorem product_apply (L : FVec Ideal S2048x1024 .bf16) (R : FVec Ideal S256x1024 .bf16) (p : Fin 2048) (q : Fin 256) :
    FloatOps.matmul D none L R (constant S2048x256 .f32 0x00000000#32) (ix2 p q)
      = ∑ l : Fin 1024, L (ix2 p l) * R (ix2 q l) := by
  rw [Ideal.matmul_constant_zero_apply, ← Equiv.sum_comp (contrEquiv1 D 1024 rfl rfl).symm]
  refine Finset.sum_congr rfl fun l _ => ?_
  have hl := contrEquiv1_symm_val D 1024 rfl rfl l
  have el : D.lhsIdx (ix2 p q) ((contrEquiv1 D 1024 rfl rfl).symm l) = ix2 p l := funext fun a => Fin.ext (by
    match a with
    | ⟨0, _⟩ => exact lhs_row _ _
    | ⟨1, _⟩ => exact (lhs_contr _ _).trans hl)
  have er : D.rhsIdx (ix2 p q) ((contrEquiv1 D 1024 rfl rfl).symm l) = ix2 q l := funext fun a => Fin.ext (by
    match a with
    | ⟨0, _⟩ => exact rhs_row _ _
    | ⟨1, _⟩ => exact (rhs_contr _ _).trans hl)
  rw [el, er]

/-- The scale column [256, 1] broadcast along the contracted axis reads, at (q, l), the scale of row q. -/
theorem scale_apply (C : FVec Ideal S256x1 .f32) (h : S256x1.Broadcasts S256x1024) (q : Fin 256) (l : Fin 1024) :
    broadcastTo S256x1024 C h (ix2 q l) = C (ix2 q 0) :=
  broadcastTo_apply C h (ix2 q l) (ix2 q 0) fun a => match a with
    | ⟨0, _⟩ => by show q.val = if (256 : Nat) = 1 then 0 else q.val; rw [if_neg (by decide)]
    | ⟨1, _⟩ => by show 0 = if (1 : Nat) = 1 then 0 else l.val; rw [if_pos rfl]

/-- The bias row [1, 256] broadcast over the rows reads, at (p, q), the bias of column q. -/
theorem bias_apply (E : FVec Ideal S1x256 .f32) (h : S1x256.Broadcasts S2048x256) (p : Fin 2048) (q : Fin 256) :
    broadcastTo S2048x256 E h (ix2 p q) = E (ix2 0 q) :=
  broadcastTo_apply E h (ix2 p q) (ix2 0 q) fun a => match a with
    | ⟨0, _⟩ => by show 0 = if (1 : Nat) = 1 then 0 else p.val; rw [if_pos rfl]
    | ⟨1, _⟩ => by show q.val = if (256 : Nat) = 1 then 0 else q.val; rw [if_neg (by decide)]

/-- ONE ACCUMULATION STEP at (p, q): what the accumulator held, plus the sum over the contracted block of
    x[p, l] · (w[q, l] · scale[q]). -/
theorem step_apply (A : Vec Ideal S2048x1024 .f32) (B : Vec Ideal S256x1024 .i32) (C : Vec Ideal S256x1 .f32)
    (acc : Vec Ideal S2048x256 .f32) (p : Fin 2048) (q : Fin 256) :
    k0_pay2 (F := Ideal) A B C acc (ix2 p q)
      = acc (ix2 p q) + ∑ l : Fin 1024, A (ix2 p l) * (FloatOps.sitofp (F := Ideal) .f32 (B (ix2 q l)) * C (ix2 q 0)) := by
  unfold k0_pay2
  simp only [shapeCast_self]
  refine (addf_apply _ _ _).trans (congrArg (acc (ix2 p q) + ·) ?_)
  refine (product_apply _ _ p q).trans (Finset.sum_congr rfl fun l _ => ?_)
  show A (ix2 p l) * (FloatOps.sitofp (F := Ideal) .f32 (B (ix2 q l)) * broadcastTo S256x1024 C _ (ix2 q l)) = _
  rw [scale_apply]

/-- THE FINAL STEP at (p, q): the accumulator plus the bias of column q. -/
theorem final_apply (acc : Vec Ideal S2048x256 .f32) (E : Vec Ideal S1x256 .f32) (p : Fin 2048) (q : Fin 256) :
    k0_pay3 (F := Ideal) acc E (ix2 p q) = acc (ix2 p q) + E (ix2 0 q) := by
  unfold k0_pay3
  simp only [shapeCast_self]
  refine (addf_apply _ _ _).trans (congrArg (acc (ix2 p q) + ·) ?_)
  exact bias_apply _ _ p q

end Cert.KernelIdeal.Payload

end
-- ==== Proof.Blocks.lean ====
/-
  Where a block sits in its array, and what the arrays are when the region is entered.

  Point t of the grid (the contraction axis fastest) is step t mod 4 of output block t / 4, and output block g is row
  block g / 43, column block g mod 43. So at point t:
    * the x block holds rows 2048·(t/4/43) …, contracted positions 1024·(t mod 4) … of the [8192, 4096] activations;
    * the weight block holds rows 256·(t/4 mod 43) …, the same contracted positions, of the [11008, 4096] weights;
    * the scale block holds the same 256 rows of the [11008, 1] scale column;
    * the bias block holds the same 256 columns of the [1, 11008] bias row;
    * the output block is rows 2048·(t/4/43) …, columns 256·(t/4 mod 43) … of the [8192, 11008] result.
  These closed forms of the printed index maps are decided once over the 688 points. The activations, the scale column
  and the bias row are reshapes of the arguments, made before the region: a reshape keeps the row-major position, so
  row 2048·b + s of the activations is entry (b, s) of the [4, 2048, 4096] argument, and entry (n, 0) of the scale
  column and (0, n) of the bias row are entry n of their vectors.
-/
import proofs.«136515_j14551349199601_1_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps in closed form, decided over the grid. -/
theorem index_facts : ∀ t : Fin cfg0.N,
    win0_0.index t (0 : Fin 2) = t.val / 4 / 43 ∧ win0_0.index t (1 : Fin 2) = t.val % 4
    ∧ win0_1.index t (0 : Fin 2) = t.val / 4 % 43 ∧ win0_1.index t (1 : Fin 2) = t.val % 4
    ∧ win0_2.index t (0 : Fin 2) = t.val / 4 % 43 ∧ win0_2.index t (1 : Fin 2) = 0
    ∧ win0_3.index t (0 : Fin 2) = 0 ∧ win0_3.index t (1 : Fin 2) = t.val / 4 % 43
    ∧ win0_4.index t (0 : Fin 2) = t.val / 4 / 43 ∧ win0_4.index t (1 : Fin 2) = t.val / 4 % 43 :=
  (by decide +kernel : ∀ t : Fin grid0.N, _)

/-! ## The four input blocks, read off their arrays -/

/-- Entry (p, l) of the x block at point t is the activations at (2048·(t/4/43) + p, 1024·(t mod 4) + l). -/
theorem x_block (c : Dev nD) (t : Fin cfg0.N) (p : Fin 2048) (l : Fin 1024) (i : S8192x4096.Idx)
    (h0 : (i 0).val = 2048 * (t.val / 4 / 43) + p.val) (h1 : (i 1).val = 1024 * (t.val % 4) + l.val) :
    (iblk m c 0 t : Vec F S2048x1024 .f32) (ix2 p l) = V m c main_v0 i := by
  obtain ⟨e0, e1, -⟩ := index_facts t
  show V m c main_v0 (((cfg0.win 0).blk t).view.emb (ix2 p l)) = V m c main_v0 i
  have hi : ((cfg0.win 0).blk t).view.emb (ix2 p l) = i := by
    funext a; apply Fin.ext
    match a with
    | ⟨0, _⟩ => show win0_0.index t (0 : Fin 2) * 2048 + 1 * p.val = (i 0).val; rw [e0, h0]; omega
    | ⟨1, _⟩ => show win0_0.index t (1 : Fin 2) * 1024 + 1 * l.val = (i 1).val; rw [e1, h1]; omega
  rw [hi]

/-- Entry (q, l) of the weight block at point t is the weights at (256·(t/4 mod 43) + q, 1024·(t mod 4) + l). -/
theorem w_block (c : Dev nD) (t : Fin cfg0.N) (q : Fin 256) (l : Fin 1024) (i : S11008x4096.Idx)
    (h0 : (i 0).val = 256 * (t.val / 4 % 43) + q.val) (h1 : (i 1).val = 1024 * (t.val % 4) + l.val) :
    (iblk m c 1 t : Vec F S256x1024 .i32) (ix2 q l) = V m c main_arg1 i := by
  obtain ⟨-, -, e0, e1, -⟩ := index_facts t
  show V m c main_arg1 (((cfg0.win 1).blk t).view.emb (ix2 q l)) = V m c main_arg1 i
  have hi : ((cfg0.win 1).blk t).view.emb (ix2 q l) = i := by
    funext a; apply Fin.ext
    match a with
    | ⟨0, _⟩ => show win0_1.index t (0 : Fin 2) * 256 + 1 * q.val = (i 0).val; rw [e0, h0]; omega
    | ⟨1, _⟩ => show win0_1.index t (1 : Fin 2) * 1024 + 1 * l.val = (i 1).val; rw [e1, h1]; omega
  rw [hi]

/-- Entry (q, 0) of the scale block at point t is the scale column at (256·(t/4 mod 43) + q, 0). -/
theorem scale_block (c : Dev nD) (t : Fin cfg0.N) (q : Fin 256) (i : S11008x1.Idx)
    (h0 : (i 0).val = 256 * (t.val / 4 % 43) + q.val) (h1 : (i 1).val = 0) :
    (iblk m c 2 t : Vec F S256x1 .f32) (ix2 q (0 : Fin 1)) = V m c main_v1 i := by
  obtain ⟨-, -, -, -, e0, e1, -⟩ := index_facts t
  show V m c main_v1 (((cfg0.win 2).blk t).view.emb (ix2 q (0 : Fin 1))) = V m c main_v1 i
  have hi : ((cfg0.win 2).blk t).view.emb (ix2 q (0 : Fin 1)) = i := by
    funext a; apply Fin.ext
    match a with
    | ⟨0, _⟩ => show win0_2.index t (0 : Fin 2) * 256 + 1 * q.val = (i 0).val; rw [e0, h0]; omega
    | ⟨1, _⟩ => show win0_2.index t (1 : Fin 2) * 1 + 1 * 0 = (i 1).val; rw [e1, h1]
  rw [hi]

/-- Entry (0, q) of the bias block at point t is the bias row at (0, 256·(t/4 mod 43) + q). -/
theorem bias_block (c : Dev nD) (t : Fin cfg0.N) (q : Fin 256) (i : S1x11008.Idx)
    (h0 : (i 0).val = 0) (h1 : (i 1).val = 256 * (t.val / 4 % 43) + q.val) :
    (iblk m c 3 t : Vec F S1x256 .f32) (ix2 (0 : Fin 1) q) = V m c main_v2 i := by
  obtain ⟨-, -, -, -, -, -, e0, e1, -⟩ := index_facts t
  show V m c main_v2 (((cfg0.win 3).blk t).view.emb (ix2 (0 : Fin 1) q)) = V m c main_v2 i
  have hi : ((cfg0.win 3).blk t).view.emb (ix2 (0 : Fin 1) q) = i := by
    funext a; apply Fin.ext
    match a with
    | ⟨0, _⟩ => show win0_3.index t (0 : Fin 2) * 1 + 1 * 0 = (i 0).val; rw [e0, h0]
    | ⟨1, _⟩ => show win0_3.index t (1 : Fin 2) * 256 + 1 * q.val = (i 1).val; rw [e1, h1]; omega
  rw [hi]

/-! ## The arrays when the region is entered: reshapes of the arguments -/

/-- The [8192, 4096] activations are the [4, 2048, 4096] argument reshaped. -/
theorem x_entry (c : Dev nD) :
    (V m c main_v0 : Vec F S8192x4096 .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The [11008, 1] scale column is the scale vector reshaped. -/
theorem scale_entry (c : Dev nD) :
    (V m c main_v1 : Vec F S11008x1 .f32)
      = shapeCast S11008x1 (m ((c : Thread nD τ).loc main_arg2)) shapeCasts_S11008_S11008x1 := by
  show StableHlo.after hostOps0 (fun b => m (c, b)) (Proc.devRef .tc main_v1) = _
  after_results
  rfl

/-- The [1, 11008] bias row is the bias vector reshaped. -/
theorem bias_entry (c : Dev nD) :
    (V m c main_v2 : Vec F S1x11008 .f32)
      = shapeCast S1x11008 (m ((c : Thread nD τ).loc main_arg3)) shapeCasts_S11008_S1x11008 := by
  show StableHlo.after hostOps0 (fun b => m (c, b)) (Proc.devRef .tc main_v2) = _
  after_results
  rfl

/-- Row 2048·b + s, position e of the activations is entry (b, s, e) of the argument. -/
theorem x_entry_apply (c : Dev nD) (b : Fin 4) (s : Fin 2048) (e : Fin 4096) (i : S8192x4096.Idx)
    (h0 : (i 0).val = 2048 * b.val + s.val) (h1 : (i 1).val = e.val) :
    V m c main_v0 i = m ((c : Thread nD τ).loc main_arg0) (ix3 b s e) := by
  refine (congrFun (x_entry m c) i).trans ?_
  refine shapeCast_apply _ _ i (ix3 b s e) ?_
  rw [Shape.rowMajor_val_three, Shape.rowMajor_val_two]
  show (b.val * 2048 + s.val) * 4096 + e.val = (i 0).val * 4096 + (i 1).val
  rw [h0, h1]; omega

/-- Entry (n, 0) of the scale column is entry n of the scale vector. -/
theorem scale_entry_apply (c : Dev nD) (n : Fin 11008) (i : S11008x1.Idx) (h0 : (i 0).val = n.val) (h1 : (i 1).val = 0) :
    V m c main_v1 i = m ((c : Thread nD τ).loc main_arg2) (ix1 n) := by
  refine (congrFun (scale_entry m c) i).trans ?_
  refine shapeCast_apply _ _ i (ix1 n) ?_
  rw [Shape.rowMajor_val_one, Shape.rowMajor_val_two]
  show n.val = (i 0).val * 1 + (i 1).val
  rw [h0, h1]; omega

/-- Entry (0, n) of the bias row is entry n of the bias vector. -/
theorem bias_entry_apply (c : Dev nD) (n : Fin 11008) (i : S1x11008.Idx) (h0 : (i 0).val = 0) (h1 : (i 1).val = n.val) :
    V m c main_v2 i = m ((c : Thread nD τ).loc main_arg3) (ix1 n) := by
  refine (congrFun (bias_entry m c) i).trans ?_
  refine shapeCast_apply _ _ i (ix1 n) ?_
  rw [Shape.rowMajor_val_one, Shape.rowMajor_val_two]
  show n.val = (i 0).val * 11008 + (i 1).val
  rw [h0, h1]; omega

end Cert.KernelIdeal.Blocks

end
-- ==== Proof.Blocked.lean ====
/-
  The one law that joins the two programs: a sum cut into blocks.

  The reference contracts all 4096 positions in one sum. The kernel walks the contracted axis in four blocks of 1024
  positions, starting from zero and adding one block's partial sum per step, so it ends with
  (((0 + P₀) + P₁) + P₂) + P₃, where P_s is the sum over positions 1024·s … 1024·s + 1023. The two are equal in any
  commutative additive monoid: position e is position e mod 1024 of block e / 1024, a bijection between the 4096
  positions and the pairs (block, position in the block), and a sum over pairs is the iterated sum. Only commutativity
  and associativity of addition and 0 + a = a are used, so the law holds on the extended reals with no finiteness
  assumption (no term is cancelled or distributed).
-/
import Mathlib.Algebra.BigOperators.Fin
import Mathlib.Logic.Equiv.Fin.Basic

open scoped BigOperators

namespace Cert.Blocked

variable {M : Type*} [AddCommMonoid M]

/-- Position `l` of block `s` among the 4096 contracted positions. -/
abbrev pos (s : Fin 4) (l : Fin 1024) : Fin 4096 :=
  ⟨1024 * s.val + l.val, by have := s.isLt; have := l.isLt; omega⟩

/-- The partial sum of block `s`. -/
def blockSum (f : Fin 4096 → M) (s : Fin 4) : M := ∑ l : Fin 1024, f (pos s l)

/-- The whole sum is the sum of the four partial sums. -/
theorem sum_eq_sum_blocks (f : Fin 4096 → M) : ∑ e : Fin 4096, f e = ∑ s : Fin 4, blockSum f s := by
  unfold blockSum
  rw [← Equiv.sum_comp (finProdFinEquiv : Fin 4 × Fin 1024 ≃ Fin (4 * 1024)) f, Fintype.sum_prod_type]
  refine Finset.sum_congr rfl fun s _ => Finset.sum_congr rfl fun l _ => congrArg f (Fin.ext ?_)
  show l.val + 1024 * s.val = 1024 * s.val + l.val
  omega

/-- The kernel's ordered chain from zero over the four blocks is the whole sum. -/
theorem chain_eq_sum (f : Fin 4096 → M) :
    (((0 + blockSum f 0) + blockSum f 1) + blockSum f 2) + blockSum f 3 = ∑ e : Fin 4096, f e := by
  rw [sum_eq_sum_blocks, Fin.sum_univ_four, zero_add]

end Cert.Blocked
-- ==== Proof.Result.lean ====
/-
  The function both programs compute.

  A linear layer with weights stored as integers and one scale per output feature: for batch b, position s and output
  feature n,
      out[b, s, n] = (Σ_e x[b, s, e] · (w[n, e] · scale[n])) + bias[n],
  the sum over the 4096 input features e, every operation exact on the extended reals (the integer weight read as that
  integer). The weight matrix is used row by row, so the product is with its transpose.
-/
import Idealize.ShloMosaic.Lib.ValueIdx
import proofs.«136515_j14551349199601_1_alg».proof.Proof.Blocked

noncomputable section

open Idealize.ShloMosaic Idealize.ShloMosaic.ValueIdx
open scoped BigOperators

namespace Cert.QLinear

/-- One product of the contraction for output feature n: x · (w · scale). -/
def term (xrow : Fin 4096 → Elt Ideal .f32) (wrow : Fin 4096 → Elt Ideal .i32) (scale : Elt Ideal .f32) (e : Fin 4096) :
    Elt Ideal .f32 :=
  xrow e * (FloatOps.sitofp (F := Ideal) .f32 (wrow e) * scale)

/-- One entry of the result from a row of activations, a row of weights, that row's scale and its bias. -/
def dotRow (xrow : Fin 4096 → Elt Ideal .f32) (wrow : Fin 4096 → Elt Ideal .i32) (scale bias : Elt Ideal .f32) :
    Elt Ideal .f32 :=
  (∑ e : Fin 4096, term xrow wrow scale e) + bias

/-- The same entry as the kernel reaches it: four partial sums over blocks of 1024 input features added one by one
    to zero, then the bias (the block law, Blocked.chain_eq_sum). -/
theorem dotRow_eq_chain (xrow : Fin 4096 → Elt Ideal .f32) (wrow : Fin 4096 → Elt Ideal .i32) (scale bias : Elt Ideal .f32) :
    ((((0 + Cert.Blocked.blockSum (term xrow wrow scale) 0) + Cert.Blocked.blockSum (term xrow wrow scale) 1)
        + Cert.Blocked.blockSum (term xrow wrow scale) 2) + Cert.Blocked.blockSum (term xrow wrow scale) 3) + bias
      = dotRow xrow wrow scale bias := by
  unfold dotRow
  rw [Cert.Blocked.chain_eq_sum]

/-- The result at (b, s, n) of the argument arrays. -/
def entry (x : Vec Ideal ⟨3, ![4, 2048, 4096]⟩ .f32) (w : Vec Ideal ⟨2, ![11008, 4096]⟩ .i32)
    (sc bi : Vec Ideal ⟨1, ![11008]⟩ .f32) (b : Fin 4) (s : Fin 2048) (n : Fin 11008) : Elt Ideal .f32 :=
  dotRow (fun e => x (ix3 b s e)) (fun e => w (ix2 n e)) (sc (ix1 n)) (bi (ix1 n))

/-- The whole [4, 2048, 11008] result. -/
def result (x : Vec Ideal ⟨3, ![4, 2048, 4096]⟩ .f32) (w : Vec Ideal ⟨2, ![11008, 4096]⟩ .i32)
    (sc bi : Vec Ideal ⟨1, ![11008]⟩ .f32) : Vec Ideal ⟨3, ![4, 2048, 11008]⟩ .f32 :=
  fun i => entry x w sc bi ⟨(i 0).val, (i 0).isLt⟩ ⟨(i 1).val, (i 1).isLt⟩ ⟨(i 2).val, (i 2).isLt⟩

theorem result_apply (x : Vec Ideal ⟨3, ![4, 2048, 4096]⟩ .f32) (w : Vec Ideal ⟨2, ![11008, 4096]⟩ .i32)
    (sc bi : Vec Ideal ⟨1, ![11008]⟩ .f32) (b : Fin 4) (s : Fin 2048) (n : Fin 11008) :
    result x w sc bi (ix3 b s n) = entry x w sc bi b s n := rfl

end Cert.QLinear

end
-- ==== Proof.KBlock.lean ====
/-
  One entry of the output block a run of four points leaves, as the result function of the arguments.

  Fix the last point t of a run (t mod 4 = 3), a row p and a column q of the [2048, 256] output block, and let
  b = t/4/43 be the batch the block's rows belong to and n = 256·(t/4 mod 43) + q the output feature of column q. The
  four points of the run share b and n and walk the input features in blocks 0, 1, 2, 3 of 1024. Reading each block off
  the arguments, the step at block s adds Σ_l x[b, p, 1024 s + l] · (w[n, 1024 s + l] · scale[n]) — the partial sum of
  block s of the contraction for (b, p, n) — the reset starts from 0, and the last point adds bias[n]. By the block law
  the entry is (Σ_e x[b, p, e] · (w[n, e] · scale[n])) + bias[n].
-/
import proofs.«136515_j14551349199601_1_alg».proof.Proof.Accum
import proofs.«136515_j14551349199601_1_alg».proof.Proof.Payload
import proofs.«136515_j14551349199601_1_alg».proof.Proof.Blocks
import proofs.«136515_j14551349199601_1_alg».proof.Proof.Result

noncomputable section

open Idealize.ShloMosaic Idealize.ShloMosaic.TcCoe Idealize.SL.Sem Idealize.ShloMosaic.ValueIdx

namespace Cert.KernelIdeal.KBlock

open Cert.KernelIdeal Cert.KernelIdeal.Gen

variable (m : (ℓ : Loc nD τ sig) → Buf (Elt Ideal) ℓ)

/-! ## The blocks of a point, read off the arguments -/

theorem x_at (c : Dev nD) (t : Fin cfg0.N) (p : Fin 2048) (l : Fin 1024) (b : Fin 4) (e : Fin 4096)
    (hb : b.val = t.val / 4 / 43) (he : e.val = 1024 * (t.val % 4) + l.val) :
    (iblk m c 0 t : Vec Ideal S2048x1024 .f32) (ix2 p l) = m ((c : Thread nD τ).loc main_arg0) (ix3 b p e) :=
  (Blocks.x_block m c t p l (ix2 (⟨2048 * b.val + p.val, by have := b.isLt; have := p.isLt; omega⟩ : Fin 8192) e)
      (by show 2048 * b.val + p.val = _; rw [hb]) he).trans
    (Blocks.x_entry_apply m c b p e _ rfl rfl)

theorem w_at (c : Dev nD) (t : Fin cfg0.N) (q : Fin 256) (l : Fin 1024) (n : Fin 11008) (e : Fin 4096)
    (hn : n.val = 256 * (t.val / 4 % 43) + q.val) (he : e.val = 1024 * (t.val % 4) + l.val) :
    (iblk m c 1 t : Vec Ideal S256x1024 .i32) (ix2 q l) = m ((c : Thread nD τ).loc main_arg1) (ix2 n e) :=
  (Blocks.w_block m c t q l (ix2 n e) hn he).trans (congrFun (V_main_arg1 m c) (ix2 n e))

theorem scale_at (c : Dev nD) (t : Fin cfg0.N) (q : Fin 256) (n : Fin 11008)
    (hn : n.val = 256 * (t.val / 4 % 43) + q.val) :
    (iblk m c 2 t : Vec Ideal S256x1 .f32) (ix2 q (0 : Fin 1)) = m ((c : Thread nD τ).loc main_arg2) (ix1 n) :=
  (Blocks.scale_block m c t q (ix2 n (0 : Fin 1)) hn rfl).trans (Blocks.scale_entry_apply m c n _ rfl rfl)

theorem bias_at (c : Dev nD) (t : Fin cfg0.N) (q : Fin 256) (n : Fin 11008)
    (hn : n.val = 256 * (t.val / 4 % 43) + q.val) :
    (iblk m c 3 t : Vec Ideal S1x256 .f32) (ix2 (0 : Fin 1) q) = m ((c : Thread nD τ).loc main_arg3) (ix1 n) :=
  (Blocks.bias_block m c t q (ix2 (0 : Fin 1) n) rfl hn).trans (Blocks.bias_entry_apply m c n _ rfl rfl)

/-! ## One step of the run adds one block of the contraction -/

/-- A block product at (p, q), for blocks whose entries in row p, row q are known: when the x block's row p holds
    positions 1024 s … of a row of activations, the weight block's row q the same positions of a row of weights, and
    the scale block's row q that row's scale, the block product is the partial sum of block s of that contraction. -/
theorem block_sum (A : Vec Ideal S2048x1024 .f32) (B : Vec Ideal S256x1024 .i32) (C : Vec Ideal S256x1 .f32)
    (s : Fin 4) (p : Fin 2048) (q : Fin 256)
    (xrow : Fin 4096 → Elt Ideal .f32) (wrow : Fin 4096 → Elt Ideal .i32) (scale : Elt Ideal .f32)
    (hA : ∀ l : Fin 1024, A (ix2 p l) = xrow (Cert.Blocked.pos s l))
    (hB : ∀ l : Fin 1024, B (ix2 q l) = wrow (Cert.Blocked.pos s l)) (hC : C (ix2 q (0 : Fin 1)) = scale) :
    ∑ l : Fin 1024, A (ix2 p l) * (FloatOps.sitofp (F := Ideal) .f32 (B (ix2 q l)) * C (ix2 q (0 : Fin 1)))
      = Cert.Blocked.blockSum (Cert.QLinear.term xrow wrow scale) s := by
  unfold Cert.Blocked.blockSum
  refine Finset.sum_congr rfl fun l _ => ?_
  rw [hA l, hB l, hC]
  rfl

/-- The block product of point t at (p, q) is the partial sum of block `t mod 4` of the contraction for (b, p, n). -/
theorem step_sum (c : Dev nD) (t : Fin cfg0.N) (s : Fin 4) (hs : t.val % 4 = s.val) (p : Fin 2048) (q : Fin 256)
    (b : Fin 4) (n : Fin 11008) (hb : b.val = t.val / 4 / 43) (hn : n.val = 256 * (t.val / 4 % 43) + q.val) :
    ∑ l : Fin 1024, (fun (A : Vec Ideal S2048x1024 .f32) (B : Vec Ideal S256x1024 .i32) (C : Vec Ideal S256x1 .f32) =>
        A (ix2 p l) * (FloatOps.sitofp (F := Ideal) .f32 (B (ix2 q l)) * C (ix2 q (0 : Fin 1))))
        (iblk m c 0 t) (iblk m c 1 t) (iblk m c 2 t)
      = Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) s := by
  have he : ∀ l : Fin 1024, (Cert.Blocked.pos s l).val = 1024 * (t.val % 4) + l.val := fun l => by
    show 1024 * s.val + l.val = _; rw [hs]
  exact block_sum (iblk m c 0 t) (iblk m c 1 t) (iblk m c 2 t) s p q
    (fun e => m ((c : Thread nD τ).loc main_arg0) (ix3 b p e)) (fun e => m ((c : Thread nD τ).loc main_arg1) (ix2 n e))
    (m ((c : Thread nD τ).loc main_arg2) (ix1 n))
    (fun l => x_at m c t p l b (Cert.Blocked.pos s l) hb (he l))
    (fun l => w_at m c t q l n (Cert.Blocked.pos s l) hn (he l))
    (scale_at m c t q n hn)

/-- An accumulation step at point t, at (p, q). -/
theorem step_entry (c : Dev nD) (t : ℕ) (ht : t < cfg0.N) (s : Fin 4) (hs : t % 4 = s.val)
    (acc : Vec Ideal S2048x256 .f32) (p : Fin 2048) (q : Fin 256) (b : Fin 4) (n : Fin 11008)
    (hb : b.val = t / 4 / 43) (hn : n.val = 256 * (t / 4 % 43) + q.val) :
    Accum.step m c t ht acc (ix2 p q) = acc (ix2 p q) + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) s := by
  unfold Accum.step
  refine (Payload.step_apply (iblk m c 0 ⟨t, ht⟩) (iblk m c 1 ⟨t, ht⟩) (iblk m c 2 ⟨t, ht⟩) acc p q).trans
    (congrArg (acc (ix2 p q) + ·) ?_)
  exact step_sum m c ⟨t, ht⟩ s hs p q b n hb hn

/-- The reset at the first point of a run, at (p, q): zero plus block 0 of the contraction. -/
theorem first_entry (c : Dev nD) (t : ℕ) (ht : t < cfg0.N) (h0 : t % 4 = 0)
    (p : Fin 2048) (q : Fin 256) (b : Fin 4) (n : Fin 11008)
    (hb : b.val = t / 4 / 43) (hn : n.val = 256 * (t / 4 % 43) + q.val) :
    Accum.first m c t ht (ix2 p q) = 0 + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) 0 := by
  unfold Accum.first
  refine (Payload.step_apply (iblk m c 0 ⟨t, ht⟩) (iblk m c 1 ⟨t, ht⟩) (iblk m c 2 ⟨t, ht⟩) (k0_pay1 (F := Ideal)) p q).trans ?_
  rw [Payload.reset_apply]
  exact congrArg (0 + ·) (step_sum m c ⟨t, ht⟩ 0 h0 p q b n hb hn)

/-! ## The run's accumulator, and the output block -/

/-- After the last point t of a run the accumulator holds, at (p, q), the four partial sums added one by one to zero. -/
theorem scratch_entry (c : Dev nD) (t : ℕ) (ht : t < cfg0.N) (h3 : t % 4 = 3) (p : Fin 2048) (q : Fin 256)
    (b : Fin 4) (n : Fin 11008) (hb : b.val = t / 4 / 43) (hn : n.val = 256 * (t / 4 % 43) + q.val) :
    (outsAt0 m c t ht).2 (ix2 p q)
      = (((0 + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) 0) + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) 1)
          + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) 2) + Cert.Blocked.blockSum (Cert.QLinear.term (fun e => m ((c : Thread nD τ).loc main_arg0) (ix3 b p e)) (fun e => m ((c : Thread nD τ).loc main_arg1) (ix2 n e)) (m ((c : Thread nD τ).loc main_arg2) (ix1 n))) 3 := by
  have same : ∀ (u : ℕ) (hu : u < cfg0.N), u = t → (outsAt0 m c u hu).2 = (outsAt0 m c t ht).2 :=
    fun u hu e => by subst e; rfl
  have hg : 4 * (t / 4) + 3 = t := by omega
  have k3 : 4 * (t / 4) + 3 < cfg0.N := by rw [hg]; exact ht
  have k2 : 4 * (t / 4) + 2 < cfg0.N := by omega
  have k1 : 4 * (t / 4) + 1 < cfg0.N := by omega
  have k0 : 4 * (t / 4) < cfg0.N := by omega
  rw [← same (4 * (t / 4) + 3) k3 hg, Accum.scratch_eq_fold m c (t / 4) 3 (by omega) k3]
  show Accum.step m c (4 * (t / 4) + 3) k3 (Accum.step m c (4 * (t / 4) + 2) k2
      (Accum.step m c (4 * (t / 4) + 1) k1 (Accum.first m c (4 * (t / 4)) k0))) (ix2 p q) = _
  rw [step_entry m c (4 * (t / 4) + 3) k3 3 (by show (4 * (t / 4) + 3) % 4 = 3; omega) _ p q b n (by omega) (by omega),
    step_entry m c (4 * (t / 4) + 2) k2 2 (by show (4 * (t / 4) + 2) % 4 = 2; omega) _ p q b n (by omega) (by omega),
    step_entry m c (4 * (t / 4) + 1) k1 1 (by show (4 * (t / 4) + 1) % 4 = 1; omega) _ p q b n (by omega) (by omega),
    first_entry m c (4 * (t / 4)) k0 (by omega) p q b n (by omega) (by omega)]

/-- THE OUTPUT BLOCK of the run ending at point t, at (p, q): the result function at (b, p, n). -/
theorem out_entry (c : Dev nD) (t : ℕ) (ht : t < cfg0.N) (h3 : t % 4 = 3) (p : Fin 2048) (q : Fin 256)
    (b : Fin 4) (n : Fin 11008) (hb : b.val = t / 4 / 43) (hn : n.val = 256 * (t / 4 % 43) + q.val) :
    (outsAt0 m c t ht).1 (ix2 p q) = Cert.QLinear.entry (m ((c : Thread nD τ).loc main_arg0)) (m ((c : Thread nD τ).loc main_arg1)) (m ((c : Thread nD τ).loc main_arg2)) (m ((c : Thread nD τ).loc main_arg3)) b p n := by
  refine (congrFun (Accum.out_at_flush m c t ht h3) (ix2 p q)).trans ?_
  refine (Payload.final_apply ((outsAt0 m c t ht).2) (iblk m c 3 ⟨t, ht⟩) p q).trans ?_
  rw [scratch_entry m c t ht h3 p q b n hb hn, bias_at m c ⟨t, ht⟩ q n hn]
  exact Cert.QLinear.dotRow_eq_chain _ _ _ _

end Cert.KernelIdeal.KBlock

end
-- ==== Proof.KValue.lean ====
/-
  What the kernel's program leaves in its result array.

  The region writes the [8192, 11008] array block by block: the run of four grid points ending at point t writes rows
  2048·(t/4/43) …, columns 256·(t/4 mod 43) …, once, at its last point. Row r of that array is batch r / 2048, position
  r mod 2048, so by the per-entry lemma every written block is the matching block of ONE function of the arguments:
  row r, column n holds the result function at (r / 2048, r mod 2048, n). The 4 · 43 written blocks tile the array — the
  entry at (r, n) lies in the block of the run with row block r / 2048 and column block n / 256 — so after the region
  the whole array is that function. The program's last operation reshapes it to [4, 2048, 11008], which keeps the
  row-major position: entry (b, s, n) is row 2048 b + s, column n, the result function at (b, s, n).
-/
import proofs.«136515_j14551349199601_1_alg».proof.Proof.Gen.KernelIdeal.Frame
import proofs.«136515_j14551349199601_1_alg».proof.Proof.KBlock
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The [8192, 11008] array the region leaves: row r, column n holds the result at (r / 2048, r mod 2048, n). -/
def result2 (c : Dev nD) : Vec Ideal S8192x11008 .f32 := fun i =>
  Cert.QLinear.entry (m ((c : Thread nD τ).loc main_arg0)) (m ((c : Thread nD τ).loc main_arg1)) (m ((c : Thread nD τ).loc main_arg2)) (m ((c : Thread nD τ).loc main_arg3))
    ⟨(i 0).val / 2048, by have := idx2_lt0 i; omega⟩ ⟨(i 0).val % 2048, by omega⟩ ⟨(i 1).val, idx2_lt1 i⟩

/-- At row 2048 b + s, column n it is the result at (b, s, n). -/
theorem result2_at (c : Dev nD) (i : S8192x11008.Idx) (b : Fin 4) (s : Fin 2048) (n : Fin 11008)
    (h0 : (i 0).val = 2048 * b.val + s.val) (h1 : (i 1).val = n.val) :
    result2 m c i = Cert.QLinear.entry (m ((c : Thread nD τ).loc main_arg0)) (m ((c : Thread nD τ).loc main_arg1)) (m ((c : Thread nD τ).loc main_arg2)) (m ((c : Thread nD τ).loc main_arg3)) b s n := by
  have eb : (⟨(i 0).val / 2048, by have := idx2_lt0 i; omega⟩ : Fin 4) = b :=
    Fin.ext (by show (i 0).val / 2048 = b.val; have := s.isLt; omega)
  have es : (⟨(i 0).val % 2048, by omega⟩ : Fin 2048) = s :=
    Fin.ext (by show (i 0).val % 2048 = s.val; have := s.isLt; omega)
  have en : (⟨(i 1).val, idx2_lt1 i⟩ : Fin 11008) = n := Fin.ext h1
  unfold result2
  rw [eb, es, en]

/-- WHAT A RUN WRITES BACK at its last point is its block of that array. -/
theorem flushed_eq (c : Dev nD) (t : Fin cfg0.N) (hf : (cfg0.win 4).flush t = true) :
    (dats m 0 c).flushed 4 t = ((cfg0.win 4).blk t).view.read (Elt Ideal) (result2 m c) := by
  have h3 : t.val % 4 = 3 := (flush0_4 t).mp hf
  have hN : t.val < 688 := lt_of_lt_of_eq t.isLt (show cfg0.N = 688 from N_0)
  obtain ⟨-, -, -, -, -, -, -, -, e0, e1⟩ := Blocks.index_facts t
  show (cfg0.win 4).cut (grid0.coords t) ((dats m 0 c).after 4 t) = _
  rw [after0_4]
  funext j
  obtain ⟨p, q, rfl⟩ : ∃ (p : Fin 2048) (q : Fin 256), j = ix2 p q := ⟨j 0, j 1, eq_ix2 j⟩
  show (outsAt0 m c t.val t.isLt).1 (ix2 p q) = result2 m c (((cfg0.win 4).blk t).view.emb (ix2 p q))
  have hb : t.val / 4 / 43 < 4 := by omega
  have hn : 256 * (t.val / 4 % 43) + q.val < 11008 := by have := q.isLt; omega
  rw [result2_at m c (((cfg0.win 4).blk t).view.emb (ix2 p q)) ⟨t.val / 4 / 43, hb⟩ p ⟨256 * (t.val / 4 % 43) + q.val, hn⟩
    (by show win0_4.index t (0 : Fin 2) * 2048 + 1 * p.val = 2048 * (t.val / 4 / 43) + p.val; rw [e0]; omega)
    (by show win0_4.index t (1 : Fin 2) * 256 + 1 * q.val = 256 * (t.val / 4 % 43) + q.val; rw [e1]; omega)]
  exact KBlock.out_entry m c t.val t.isLt h3 p q _ _ rfl rfl

/-- An entry of the array is in point t's block iff each coordinate is in the block's range on its axis. -/
theorem mem_blk (t : Fin cfg0.N) (i : S8192x11008.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v3).slice (win0_4.rect t)).set ↔ _
  rw [View.set_slice_whole, Rect.mem_set_unit]
  exact Iff.rfl

/-- THE COVER: entry (r, n) is written by the run with row block r / 2048 and column block n / 256, at its last point. -/
theorem cover (i : S8192x11008.Idx) :
    ∃ t : Fin cfg0.N, (cfg0.win 4).flush t = true ∧ i ∈ ((cfg0.win 4).blk t).view.set := by
  have hN : cfg0.N = 688 := N_0
  have h0 : (i 0).val < 8192 := idx2_lt0 i
  have h1 : (i 1).val < 11008 := idx2_lt1 i
  obtain ⟨t, ht⟩ : ∃ t : Fin cfg0.N, t.val = ((i 0).val / 2048 * 43 + (i 1).val / 256) * 4 + 3 :=
    ⟨⟨((i 0).val / 2048 * 43 + (i 1).val / 256) * 4 + 3, by rw [hN]; omega⟩, rfl⟩
  obtain ⟨-, -, -, -, -, -, -, -, e0, e1⟩ := Blocks.index_facts t
  refine ⟨t, (flush0_4 t).mpr (by omega), ?_⟩
  rw [mem_blk]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 256 ≤ (i 1).val ∧ (i 1).val < win0_4.index t (1 : Fin 2) * 256 + 256
    rw [e1]; omega

/-- So the array ends holding that function everywhere. -/
theorem final (c : Dev nD) : (dats m 0 c).arrAt 4 cfg0.N = result2 m c :=
  (dats m 0 c).arrAt_eq_of_cover 4 (result2 m c) (flushed_eq m c) (fun i => cover i)

/-- The reshape to [4, 2048, 11008] of that array is the result function. -/
theorem reshaped (c : Dev nD) :
    shapeCast S4x2048x11008 (result2 m c) shapeCasts_S8192x11008_S4x2048x11008
      = Cert.QLinear.result (m ((c : Thread nD τ).loc main_arg0)) (m ((c : Thread nD τ).loc main_arg1)) (m ((c : Thread nD τ).loc main_arg2)) (m ((c : Thread nD τ).loc main_arg3)) := by
  funext i
  obtain ⟨b, s, n, rfl⟩ : ∃ (b : Fin 4) (s : Fin 2048) (n : Fin 11008), i = ix3 b s n := ⟨i 0, i 1, i 2, eq_ix3 i⟩
  rw [Cert.QLinear.result_apply]
  refine (shapeCast_apply (result2 m c) _ (ix3 b s n)
      (ix2 (⟨2048 * b.val + s.val, by have := b.isLt; have := s.isLt; omega⟩ : Fin 8192) n) ?_).trans
    (result2_at m c _ b s n rfl rfl)
  rw [Shape.rowMajor_val_two, Shape.rowMajor_val_three]
  show (2048 * b.val + s.val) * 11008 + n.val = (b.val * 2048 + s.val) * 11008 + n.val
  omega

/-- The program's last operation, the reshape of the region's array, leaves the result function in the result. -/
theorem tail_result (c : Dev nD) :
    Pipeline.afterTail₀ cfgs (dats m) 0 (V0 m) [hostOps1] c main_v4 = Cert.QLinear.result (m ((c : Thread nD τ).loc main_arg0)) (m ((c : Thread nD τ).loc main_arg1)) (m ((c : Thread nD τ).loc main_arg2)) (m ((c : Thread nD τ).loc main_arg3)) := by
  refine Eq.trans ?_ (reshaped m c)
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result2 m c :=
    (Pipeline.withArrays_arr spec0 launch0.win.arr_inj c _ _ 4).trans (final m c)
  rw [e]
  rfl

/-- THE RUN, READ: every weakly fair execution ends with the result array at the result function of the arguments and
    the arguments unchanged. -/
theorem run : θ_run defs (onTc (τ := τ) (main (F := Ideal))) ⟨m, fun _ => 0, ρ⟩ fun r => ∀ c : Dev nD,
      r.2.mem ((c.tc : Thread nD τ).loc main_v4) = Cert.QLinear.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.Reference.lean ====
/-
  The reference computes the result function.

  The reference scales the whole integer weight matrix row by row, contracts the activations with it over the 4096 input
  features in ONE sum (an einsum of [4, 2048, 4096] with [11008, 4096] over the last axis of each), and adds the bias
  broadcast over batch and position. Read one entry at a time: at (b, s, n) the contraction pairs x[b, s, e] with the
  scaled weight at (n, e), the scale broadcast along e is scale[n], and the bias broadcast reads bias[n] — the result
  function, term for term.
-/
import proofs.«136515_j14551349199601_1_alg».proof.Proof.Gen.ReferenceIdeal.Read
import proofs.«136515_j14551349199601_1_alg».proof.Proof.Result

noncomputable section

open Idealize.ShloMosaic Idealize.ShloMosaic.ValueIdx

namespace Cert.ReferenceIdeal.RefValue

open Cert.ReferenceIdeal Cert.ReferenceIdeal.Read

/-- The reference's last stage is the result function of its four arguments, entry by entry. -/
theorem reference_eq (x0 : (⟨S4x2048x4096, .f32⟩ : BufTy).Contents (Elt Ideal))
    (x1 : (⟨S11008x4096, .i32⟩ : BufTy).Contents (Elt Ideal)) (x2 x3 : (⟨S11008, .f32⟩ : BufTy).Contents (Elt Ideal)) :
    val_main_v7 (F := Ideal) x0 x1 x2 x3 = Cert.QLinear.result x0 x1 x2 x3 := by
  funext i
  obtain ⟨b, s, n, rfl⟩ : ∃ (b : Fin 4) (s : Fin 2048) (n : Fin 11008), i = ix3 b s n := ⟨i 0, i 1, i 2, eq_ix3 i⟩
  -- the contraction pairs x[b, s, e] with the scaled weight at (n, e)
  have e1 : ∀ e : Fin 4096, lidx_main_v4 (ix3 b s n) e = ix3 b s e := fun e => funext fun a => Fin.ext (by
    match a with
    | ⟨0, _⟩ => rfl
    | ⟨1, _⟩ => rfl
    | ⟨2, _⟩ => rfl)
  have e2 : ∀ e : Fin 4096, ridx_main_v4 (ix3 b s n) e = ix2 n e := fun e => funext fun a => Fin.ext (by
    match a with
    | ⟨0, _⟩ => rfl
    | ⟨1, _⟩ => rfl)
  -- the scale broadcast along the input features reads scale[n]
  have e3 : ∀ e : Fin 4096, idx_main_v1 (idx_main_v2 (ix2 n e)) = ix1 n := fun e => funext fun a => Fin.ext (by
    match a with
    | ⟨0, _⟩ => rfl)
  -- the bias broadcast over batch and position reads bias[n]
  have e4 : idx_main_v5 (idx_main_v6 (ix3 b s n)) = ix1 n := funext fun a => Fin.ext (by
    match a with
    | ⟨0, _⟩ => rfl)
  rw [Cert.QLinear.result_apply, val_main_v7_apply, val_main_v4_apply, val_main_v6_apply, val_main_v5_apply, e4,
    Ideal.addf_def]
  unfold Cert.QLinear.entry Cert.QLinear.dotRow
  refine congrArg (· + x3 (ix1 n)) (Finset.sum_congr rfl fun e _ => ?_)
  rw [val_main_v3_apply, val_main_v0_apply, val_main_v2_apply, val_main_v1_apply, e1, e2, e3, Ideal.mulf_def]
  rfl

end Cert.ReferenceIdeal.RefValue

end
-- ==== Proof.lean ====
/-
  A linear layer with integer weights and one scale per output feature, as a Pallas kernel, against its jnp reference,
  on the extended reals.

  Both programs compute, for batch b, position s and output feature n,
      out[b, s, n] = (Σ_e x[b, s, e] · (w[n, e] · scale[n])) + bias[n]          (e over the 4096 input features),
  with every operation exact: a change of float format is the identity and an integer weight is that integer.

  The reference scales the weight matrix row by row, contracts in one sum and adds the bias: it is the formula read
  entry by entry (Proof/Reference.lean over the generated run of the reference).

  The kernel flattens (b, s) to a row r = 2048 b + s, cuts the [8192, 11008] result into 4 × 43 blocks of [2048, 256]
  and the contraction into 4 blocks of 1024 input features, and walks the grid with the contraction fastest. A scratch
  accumulator is zeroed at the first of a block's four points, receives one partial product per point, and at the
  fourth is written out with the bias row added (Proof/Pieces.lean: what each case of the body leaves; Proof/Accum.lean:
  the accumulator as a fold over the run; Proof/Payload.lean: the body's arithmetic one entry at a time). Reading each
  staged block off the arguments (Proof/Blocks.lean), the entry at (p, q) of the block a run writes is
  (((0 + P₀) + P₁) + P₂) + P₃ + bias[n], where P_s is the partial sum over input features 1024 s … 1024 s + 1023 of the
  same products (Proof/KBlock.lean). A sum cut into consecutive blocks and added up from zero is the sum
  (Proof/Blocked.lean) — commutativity and associativity of addition only, so nothing is assumed about the inputs being
  finite. The written blocks tile the result array, and the final reshape keeps the row-major position
  (Proof/KValue.lean). So the two results agree entry by entry (Proof/Result.lean states the common function).

  The idealized kernel is the kernel's own text read with exact arithmetic (no operation was rewritten), and the three
  programs run to the end leaving their arguments unchanged: the two kernels by their generated frames, the reference
  by its generated run.
-/
import proofs.«136515_j14551349199601_1_alg».proof.Defs
import proofs.«136515_j14551349199601_1_alg».proof.Proof.Gen.Kernel
import proofs.«136515_j14551349199601_1_alg».proof.Proof.Gen.Kernel.Skeleton
import proofs.«136515_j14551349199601_1_alg».proof.Proof.Gen.Kernel.Launch
import proofs.«136515_j14551349199601_1_alg».proof.Proof.Gen.Kernel.Points
import proofs.«136515_j14551349199601_1_alg».proof.Proof.Gen.Kernel.Frame
import proofs.«136515_j14551349199601_1_alg».proof.Proof.Gen.KernelIdeal
import proofs.«136515_j14551349199601_1_alg».proof.Proof.Gen.KernelIdeal.Skeleton
import proofs.«136515_j14551349199601_1_alg».proof.Proof.Gen.KernelIdeal.Launch
import proofs.«136515_j14551349199601_1_alg».proof.Proof.Gen.KernelIdeal.Points
import proofs.«136515_j14551349199601_1_alg».proof.Proof.Gen.KernelIdeal.Frame
import proofs.«136515_j14551349199601_1_alg».proof.Proof.Gen.ReferenceIdeal
import proofs.«136515_j14551349199601_1_alg».proof.Proof.Gen.ReferenceIdeal.Run
import proofs.«136515_j14551349199601_1_alg».proof.Proof.Gen.ReferenceIdeal.Read
import proofs.«136515_j14551349199601_1_alg».proof.Proof.Gen.Pre_finite_inputs
import proofs.«136515_j14551349199601_1_alg».proof.Proof.KValue
import proofs.«136515_j14551349199601_1_alg».proof.Proof.Reference
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the kernel read with exact arithmetic. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result function of those arguments in their
    result arrays: the kernel by its run read block by block, the reference by its run read entry by entry. -/
theorem algebraic : Cert.algebraic_KernelIdeal_ReferenceIdeal := by
  intro m ρ m' ρ' _ hagree
  refine ⟨fun c => Cert.QLinear.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ((Cert.ReferenceIdeal.RefValue.reference_eq _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
